-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S1600000x128 : Shape := ⟨2, ![1600000, 128]⟩
abbrev S1x128 : Shape := ⟨2, ![1, 128]⟩
abbrev S5000x1 : Shape := ⟨2, ![5000, 1]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩
abbrev S5000 : Shape := ⟨1, ![5000]⟩

abbrev nBuf : Space → Nat
  | .hbm => 78
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S1600000x1, .f32⟩
  | .hbm, ⟨40, _⟩ => ⟨S100000, .f32⟩
  | .hbm, ⟨41, _⟩ => ⟨S100000x1, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S1600000x128, .f32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x64, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x64, .f32⟩
  | .hbm, ⟨70, _⟩ => ⟨S1600000x64, .f32⟩
  | .hbm, ⟨71, _⟩ => ⟨S1600000x64, .f32⟩
  | .hbm, ⟨72, _⟩ => ⟨S_, .f32⟩
  | .hbm, ⟨73, _⟩ => ⟨S100000x64, .f32⟩
  | .hbm, ⟨74, _⟩ => ⟨S1600000x1, .i32⟩
  | .hbm, ⟨75, _⟩ => ⟨S100000x64, .f32⟩
  | .hbm, ⟨76, _⟩ => ⟨S1x64, .f32⟩
  | .hbm, ⟨77, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x64, .f32⟩
  | 5 => ⟨S64, .f32⟩
  | 6 => ⟨S1x1600000, .i32⟩
  | 7 => ⟨S1600000, .i32⟩
  | 8 => ⟨S1x1600000, .i32⟩
  | 9 => ⟨S1600000, .i32⟩
  | 10 => ⟨S100000x128, .f32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .f32⟩
  | 20 => ⟨S100000, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x128, .f32⟩
  | 49 => ⟨S1600000x1, .f32⟩
  | 50 => ⟨S1600000x128, .f32⟩
  | 51 => ⟨S1600000x128, .f32⟩
  | 52 => ⟨S_, .f32⟩
  | 53 => ⟨S100000x128, .f32⟩
  | 54 => ⟨S1600000x1, .i32⟩
  | 55 => ⟨S100000x128, .f32⟩
  | 56 => ⟨S100000, .f32⟩
  | 57 => ⟨S100000x1, .f32⟩
  | 58 => ⟨S100000x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S100000x64, .f32⟩
  | 68 => ⟨S_, .f32⟩
  | 69 => ⟨S1600000, .f32⟩
  | 70 => ⟨S_, .f32⟩
  | 71 => ⟨S100000, .f32⟩
  | 72 => ⟨S1600000x1, .i32⟩
  | 73 => ⟨S100000, .f32⟩
  | 74 => ⟨S_, .f32⟩
  | 75 => ⟨S100000, .f32⟩
  | 76 => ⟨S100000, .f32⟩
  | 77 => ⟨S100000, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000, .f32⟩
  | 96 => ⟨S1600000, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x64, .f32⟩
  | 106 => ⟨S1600000x1, .f32⟩
  | 107 => ⟨S1600000x64, .f32⟩
  | 108 => ⟨S1600000x64, .f32⟩
  | 109 => ⟨S_, .f32⟩
  | 110 => ⟨S100000x64, .f32⟩
  | 111 => ⟨S1600000x1, .i32⟩
  | 112 => ⟨S100000x64, .f32⟩
  | 113 => ⟨S100000, .f32⟩
  | 114 => ⟨S100000x1, .f32⟩
  | 115 => ⟨S100000x64, .f32⟩
  | 116 => ⟨S100000x64, .f32⟩
  | 117 => ⟨S100000x64, .f32⟩
  | 118 => ⟨S1x64, .f32⟩
  | 119 => ⟨S100000x64, .f32⟩
  | 120 => ⟨S100000x64, .f32⟩
  | 121 => ⟨S_, .f32⟩
  | 122 => ⟨S100000, .f32⟩
  | 123 => ⟨S_, .f32⟩
  | 124 => ⟨S100000, .f32⟩
  | 125 => ⟨S100000, .f32⟩
  | 126 => ⟨S100000x1, .f32⟩
  | 127 => ⟨S100000x64, .f32⟩
  | _ => ⟨S100000x128, .f32⟩

abbrev hbmTy0_1 (i : Nat) : BufTy := match i % 128 with
  | 0 => ⟨S100000x64, .f32⟩
  | 1 => ⟨S100000x64, .f32⟩
  | 2 => ⟨S_, .f32⟩
  | 3 => ⟨S100000, .f32⟩
  | 4 => ⟨S100000x1, .f32⟩
  | 5 => ⟨S100000x64, .f32⟩
  | 6 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_18 : Ref sig .tc := ⟨.hbm, 121, rfl⟩
abbrev main_v93 : Ref sig .tc := ⟨.hbm, 122, rfl⟩
abbrev main_cst_19 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_20 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KRun.lean ====
/-
  The idealized kernel's run with its result named.

  The program is seven segments: three stretches of host operations and four grid launches.  The contents of every
  buffer at each segment boundary form a fold from the launch memory (a host stretch applies its operations; a launch
  replaces its output array by what its write-backs leave and keeps every other buffer).  The launch theorem over the
  segments ends with every unscoped buffer at the last boundary's contents; read at the result buffer this names the
  result, and read at the six arguments it gives them back unchanged.
-/
import proofs.«138460_j58067957842339_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the six arguments end as launched. -/
theorem run_value : θ_run defs (onTc (τ := τ) (main (F := F))) ⟨m, fun _ => 0, ρ⟩ (fun r => ∀ c : Dev nD,
      r.2.mem ((c.tc : Thread nD τ).loc main_v58) = W7 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v58 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.KRun

end
-- ==== Proof.LibMatmulRowCol.lean ====
/-
  A plain matrix product into a zero accumulator, read at an entry, at the ideal values.

  For any dimension numbers over an [M, K] left operand, a [K, N] right operand and an [M, N] result that
  contract the left operand's second axis against the right operand's first (stated as four coordinate facts
  about the dimension numbers' operand indices, which a literal record proves by unfolding), entry (p, c) of
  `matmul D none X W 0` is the sum over k of X p k · W k c. General in M, K, N and in both operand formats;
  nothing in it is specific to one kernel.
-/
import Idealize.ShloMosaic.Lib.ValueIdx
import Idealize.ShloMosaic.PureOps.Ideal.Laws

noncomputable section

namespace Cert.LibMatmul

open Idealize.ShloMosaic Idealize.ShloMosaic.ValueIdx

/-- For dimension numbers contracting the left operand's columns against the right operand's rows
    (the four coordinate facts hl0 … hr1 say so), entry (p, c) of the product into a zero accumulator
    is Σ_k X p k · W k c. -/
theorem matmul_rowcol {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (X : FVec Ideal ⟨2, ![M, K]⟩ φ₁) (W : FVec Ideal ⟨2, ![K, N]⟩ φ₂) (p : Fin M) (c : Fin N) :
    matmul D none X W (constant ⟨2, ![M, N]⟩ .f32 0x00000000#32) (ix2 p c)
      = ∑ k : Fin K, X (ix2 p k) * W (ix2 k c) := by
  refine (Ideal.matmul_constant_zero_apply D none X W (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibMatmul

end
-- ==== Proof.Spec.lean ====
/-
  The two-layer graph convolution, entry by entry, on the extended reals.

  A node's row of a layer is, before the activation, the neighbour aggregate plus the node's own transformed features
  times its squared normalizer plus the bias:  pre(p, q) = agg(p, q) + h(p, q) · nsq(p) + b(q).
  The first layer ends with max(·, 0) and the second with a softmax along the row, taken the stable way: subtract the
  row's maximum, exponentiate, divide by the row's sum of exponentials.  The dense transform is a plain matrix product.
  Everything is stated over matrices of any extents so that it reads both a row block and the whole array.
-/
import Idealize.ShloMosaic.Lib.ValueIdx
import Idealize.ShloMosaic.PureOps.Ideal.Laws

noncomputable section

namespace Cert.Gcn

open Idealize.ShloMosaic Idealize.ShloMosaic.ValueIdx

/-- An n × d matrix of extended reals, indexed as the programs index a rank-2 array. -/
abbrev Mat (n d : Nat) : Type := (⟨2, ![n, d]⟩ : Shape).Idx → EReal

/-- The pre-activation of row p, column q: aggregate + own features · squared normalizer + bias. -/
def pre {n d : Nat} (agg h : Mat n d) (nsq : Mat n 1) (b : Mat 1 d) (p : Fin n) (q : Fin d) : EReal :=
  agg (ix2 p q) + h (ix2 p q) * nsq (ix2 p (0 : Fin 1)) + b (ix2 (0 : Fin 1) q)

/-- The first layer's output: the pre-activation cut off below at the f32 zero. -/
def reluOut {n d : Nat} (agg h : Mat n d) (nsq : Mat n 1) (b : Mat 1 d) : Mat n d :=
  fun i => max (pre agg h nsq b (i 0) (i 1)) (Ideal.ofBits .f32 0x00000000#32)

/-- A row's maximum, folded from the f32 minus infinity. -/
def rowMax {d : Nat} (z : Fin d → EReal) : EReal :=
  (Finset.univ : Finset (Fin d)).fold max (Ideal.ofBits .f32 0xFF800000#32) z

/-- A row's softmax at column q: exp(z q − max z) over the sum of exp(z k − max z). -/
def softmaxRow {d : Nat} (z : Fin d → EReal) (q : Fin d) : EReal :=
  Ideal.div (Ideal.exp (z q - rowMax z)) (∑ k : Fin d, Ideal.exp (z k - rowMax z))

/-- The second layer's output: the softmax of each row of pre-activations. -/
def softmaxOut {n d : Nat} (agg h : Mat n d) (nsq : Mat n 1) (b : Mat 1 d) : Mat n d :=
  fun i => softmaxRow (pre agg h nsq b (i 0)) (i 1)

/-- The dense transform: entry (p, q) of x · w. -/
def matProd {n k d : Nat} (x : Mat n k) (w : Mat k d) : Mat n d :=
  fun i => ∑ j : Fin k, x (ix2 (i 0) j) * w (ix2 j (i 1))

theorem reluOut_apply {n d : Nat} (agg h : Mat n d) (nsq : Mat n 1) (b : Mat 1 d) (p : Fin n) (q : Fin d) :
    reluOut agg h nsq b (ix2 p q) = max (pre agg h nsq b p q) (Ideal.ofBits .f32 0x00000000#32) := rfl

theorem softmaxOut_apply {n d : Nat} (agg h : Mat n d) (nsq : Mat n 1) (b : Mat 1 d) (p : Fin n) (q : Fin d) :
    softmaxOut agg h nsq b (ix2 p q) = softmaxRow (pre agg h nsq b p) q := rfl

theorem matProd_apply {n k d : Nat} (x : Mat n k) (w : Mat k d) (p : Fin n) (q : Fin d) :
    matProd x w (ix2 p q) = ∑ j : Fin k, x (ix2 p j) * w (ix2 j q) := rfl

end Cert.Gcn

end
-- ==== Proof.MatPay.lean ====
/-
  The two dense transforms' block arithmetic, read at an entry.

  Each matmul body rounds its two loaded blocks to bf16 (the identity on the extended reals) and multiplies them into a
  zero accumulator, contracting the left block's columns against the right block's rows: entry (p, q) of the stored
  block is the sum over k of x(p, k) · w(k, q), the matrix product of the two blocks.
-/
import proofs.«138460_j58067957842339_2_alg».proof.Proof.Gen.KernelIdeal.Skeleton
import proofs.«138460_j58067957842339_2_alg».proof.Proof.LibMatmulRowCol
import proofs.«138460_j58067957842339_2_alg».proof.Proof.Spec
import Idealize.ShloMosaic.Lib.Pipeline.Value

noncomputable section

namespace Cert.KernelIdeal.MatPay

open Cert.KernelIdeal Cert.KernelIdeal.Gen Idealize.ShloMosaic Idealize.ShloMosaic.ValueIdx

/-- The first transform's dimension numbers: [5000,128] × [128,128]. -/
abbrev D0 : DotDims S5000x128 S128x128 S5000x128 := dot_S5000x128_S128x128_S5000x128_1_0_0_1_n_n
/-- The second transform's dimension numbers: [5000,128] × [128,64]. -/
abbrev D2 : DotDims S5000x128 S128x64 S5000x64 := dot_S5000x128_S128x64_S5000x64_1_0_0_1_n_n

theorem d0_l0 (i : S5000x128.Idx) (q : D0.contr.Idx) : (D0.lhsIdx i q 0).val = (i 0).val := by
  unfold DotDims.lhsIdx
  rw [dif_neg (show ¬(0 : Fin S5000x128.rank) ∈ D0.lhsBatch by decide), dif_pos (show (0 : Fin S5000x128.rank) ∈ D0.lhsNonContracting by decide)]
  rfl
theorem d0_l1 (i : S5000x128.Idx) (q : D0.contr.Idx) : (D0.lhsIdx i q 1).val = (q ⟨0, by decide⟩).val :=
  D0.lhsIdx_val_of_single rfl i q
theorem d0_r0 (i : S5000x128.Idx) (q : D0.contr.Idx) : (D0.rhsIdx i q 0).val = (q ⟨0, by decide⟩).val :=
  D0.rhsIdx_val_of_single rfl i q
theorem d0_r1 (i : S5000x128.Idx) (q : D0.contr.Idx) : (D0.rhsIdx i q 1).val = (i 1).val := by
  unfold DotDims.rhsIdx
  rw [dif_neg (show ¬(1 : Fin S128x128.rank) ∈ D0.rhsBatch by decide), dif_pos (show (1 : Fin S128x128.rank) ∈ D0.rhsNonContracting by decide)]
  rfl

theorem d2_l0 (i : S5000x64.Idx) (q : D2.contr.Idx) : (D2.lhsIdx i q 0).val = (i 0).val := by
  unfold DotDims.lhsIdx
  rw [dif_neg (show ¬(0 : Fin S5000x128.rank) ∈ D2.lhsBatch by decide), dif_pos (show (0 : Fin S5000x128.rank) ∈ D2.lhsNonContracting by decide)]
  rfl
theorem d2_l1 (i : S5000x64.Idx) (q : D2.contr.Idx) : (D2.lhsIdx i q 1).val = (q ⟨0, by decide⟩).val :=
  D2.lhsIdx_val_of_single rfl i q
theorem d2_r0 (i : S5000x64.Idx) (q : D2.contr.Idx) : (D2.rhsIdx i q 0).val = (q ⟨0, by decide⟩).val :=
  D2.rhsIdx_val_of_single rfl i q
theorem d2_r1 (i : S5000x64.Idx) (q : D2.contr.Idx) : (D2.rhsIdx i q 1).val = (i 1).val := by
  unfold DotDims.rhsIdx
  rw [dif_neg (show ¬(1 : Fin S128x64.rank) ∈ D2.rhsBatch by decide), dif_pos (show (1 : Fin S128x64.rank) ∈ D2.rhsNonContracting by decide)]
  rfl

/-- The first transform's stored block is the product of its two loaded blocks. -/
theorem pay0_eq (x0 : Vec Ideal S5000x128 .f32) (x1 : Vec Ideal S128x128 .f32) :
    k0_pay1 (F := Ideal) x0 x1 = Cert.Gcn.matProd (n := 5000) (k := 128) (d := 128) x0 x1 := by
  funext j
  obtain ⟨p, q, rfl⟩ : ∃ (p : Fin 5000) (q : Fin 128), j = ix2 p q := ⟨j 0, j 1, eq_ix2 j⟩
  unfold k0_pay1
  exact Cert.LibMatmul.matmul_rowcol D0 rfl rfl d0_l0 d0_l1 d0_r0 d0_r1 _ _ p q

/-- The second transform's stored block is the product of its two loaded blocks (the left one first re-cast to its
    own shape, which changes nothing). -/
theorem pay2_eq (x0 : Vec Ideal S5000x128 .f32) (x1 : Vec Ideal S128x64 .f32) :
    k2_pay1 (F := Ideal) x0 x1 = Cert.Gcn.matProd (n := 5000) (k := 128) (d := 64) x0 x1 := by
  funext j
  obtain ⟨p, q, rfl⟩ : ∃ (p : Fin 5000) (q : Fin 64), j = ix2 p q := ⟨j 0, j 1, eq_ix2 j⟩
  unfold k2_pay1
  rw [shapeCast_self]
  exact Cert.LibMatmul.matmul_rowcol D2 rfl rfl d2_l0 d2_l1 d2_r0 d2_r1 _ _ p q

end Cert.KernelIdeal.MatPay

end
-- ==== Proof.SpecCongr.lean ====
/-
  Congruences for the layer formulas: an entry of a matrix product, or a pre-activation, depends only on the rows and
  columns it reads, so two families of matrices that agree on those give the same value.  This is what lets a row of a
  row block stand for the same row of the whole array.
-/
import proofs.«138460_j58067957842339_2_alg».proof.Proof.Spec

noncomputable section

namespace Cert.Gcn

open Idealize.ShloMosaic Idealize.ShloMosaic.ValueIdx

/-- Entry (p, q) of x · w equals entry (p', q') of a · b when row p of x is row p' of a and column q of w is column q' of b. -/
theorem matProd_congr {n n' k d : Nat} (x : Mat n k) (w : Mat k d) (a : Mat n' k) (b : Mat k d)
    (p : Fin n) (p' : Fin n') (q q' : Fin d)
    (hx : ∀ j : Fin k, x (ix2 p j) = a (ix2 p' j)) (hw : ∀ j : Fin k, w (ix2 j q) = b (ix2 j q')) :
    matProd x w (ix2 p q) = matProd a b (ix2 p' q') := by
  rw [matProd_apply, matProd_apply]
  exact Finset.sum_congr rfl fun j _ => by rw [hx j, hw j]

/-- The pre-activation at (p, k) over one family of matrices equals that at (p', k) over another when the four
    entries it reads agree. -/
theorem pre_congr {n n' d : Nat} (agg h : Mat n d) (nsq : Mat n 1) (b : Mat 1 d) (agg' h' : Mat n' d) (nsq' : Mat n' 1)
    (b' : Mat 1 d) (p : Fin n) (p' : Fin n') (k : Fin d)
    (h0 : agg (ix2 p k) = agg' (ix2 p' k)) (h1 : h (ix2 p k) = h' (ix2 p' k))
    (h2 : nsq (ix2 p (0 : Fin 1)) = nsq' (ix2 p' (0 : Fin 1))) (h3 : b (ix2 (0 : Fin 1) k) = b' (ix2 (0 : Fin 1) k)) :
    pre agg h nsq b p k = pre agg' h' nsq' b' p' k := by
  unfold pre
  rw [h0, h1, h2, h3]

/-- The first layer's output at (p, q) and (p', q) under the same agreement, for every column. -/
theorem reluOut_congr {n n' d : Nat} (agg h : Mat n d) (nsq : Mat n 1) (b : Mat 1 d) (agg' h' : Mat n' d) (nsq' : Mat n' 1)
    (b' : Mat 1 d) (p : Fin n) (p' : Fin n') (q : Fin d)
    (hrow : ∀ k : Fin d, pre agg h nsq b p k = pre agg' h' nsq' b' p' k) :
    reluOut agg h nsq b (ix2 p q) = reluOut agg' h' nsq' b' (ix2 p' q) := by
  rw [reluOut_apply, reluOut_apply, hrow q]

/-- The second layer's output at (p, q) and (p', q) when the two rows of pre-activations agree. -/
theorem softmaxOut_congr {n n' d : Nat} (agg h : Mat n d) (nsq : Mat n 1) (b : Mat 1 d) (agg' h' : Mat n' d) (nsq' : Mat n' 1)
    (b' : Mat 1 d) (p : Fin n) (p' : Fin n') (q : Fin d)
    (hrow : ∀ k : Fin d, pre agg h nsq b p k = pre agg' h' nsq' b' p' k) :
    softmaxOut agg h nsq b (ix2 p q) = softmaxOut agg' h' nsq' b' (ix2 p' q) := by
  rw [softmaxOut_apply, softmaxOut_apply, show pre agg h nsq b p = pre agg' h' nsq' b' p' from funext hrow]

end Cert.Gcn

end
-- ==== Proof.Region0.lean ====
/-
  The first dense transform's launch, read as one array.

  The launch visits twenty row blocks of 5000 rows.  At block t the body multiplies rows 5000·t … 5000·t + 4999 of the
  left array by the whole right matrix and writes the product back over the same rows of the output, so what block t
  writes back is block t of the matrix product of the two whole arrays; the twenty blocks tile the output's rows, and
  the output array ends as that product.
-/
import proofs.«138460_j58067957842339_2_alg».proof.Proof.Gen.KernelIdeal.Frame
import proofs.«138460_j58067957842339_2_alg».proof.Proof.MatPay
import proofs.«138460_j58067957842339_2_alg».proof.Proof.SpecCongr
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left and output windows sit at row block t, column block 0; the right
    window is the whole matrix at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The matrix product of the two arrays as the launch finds them. -/
abbrev G (c : Dev nD) : Cert.Gcn.Mat 100000 128 :=
  Cert.Gcn.matProd (n := 100000) (k := 128) (d := 128) (V c main_arg0) (V c main_arg2)

/-- What point t writes back is block t of the product: row p of the block is row 5000·t + p of the left array. -/
theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  show k0_pay1 (F := Ideal) (iblk0 V c 0 t) (iblk0 V c 1 t) j = G V c (((cfg0.win 2).blk t).view.emb j)
  refine (congrFun (Cert.KernelIdeal.MatPay.pay0_eq (iblk0 V c 0 t) (iblk0 V c 1 t)) j).trans ?_
  have hj0 : (j 0).val < 5000 := (j 0).isLt
  have hj1 : (j 1).val < 128 := (j 1).isLt
  refine (congrArg (Cert.Gcn.matProd (n := 5000) (k := 128) (d := 128) (iblk0 V c 0 t) (iblk0 V c 1 t)) (eq_ix2 (n0 := 5000) (n1 := 128) j)).trans ?_
  refine Eq.trans ?_ (congrArg (G V c) (eq_ix2 (n0 := 100000) (n1 := 128) (((cfg0.win 2).blk t).view.emb j)).symm)
  refine Cert.Gcn.matProd_congr (n := 5000) (n' := 100000) (k := 128) (d := 128) (iblk0 V c 0 t) (iblk0 V c 1 t) (V c main_arg0) (V c main_arg2) _ _ _ _ (fun k => ?_) (fun k => ?_)
  · show V c main_arg0 (((cfg0.win 0).blk t).view.emb (ix2 (j 0) k)) = _
    refine congrArg (V c main_arg0) ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg2 (((cfg0.win 1).blk t).view.emb (ix2 k (j 1))) = _
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- Every row lies in the block of the point numbered by the row's quotient by 5000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_2 _, ?_⟩
  rw [mem_blk]
  obtain ⟨e0, e1, e2, e3, e4, e5⟩ := idx_facts ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

/-- The output array after the launch is the matrix product of the two arrays the launch found. -/
theorem final (c : Dev nD) : (dat0 V c).arrAt 2 cfg0.N = G V c :=
  (dat0 V c).arrAt_eq_of_cover 2 (G V c) (fun t _ => flushed_eq V c t) (cover)

end Cert.KernelIdeal.Region0

end
-- ==== Proof.LibColumn.lean ====
/-
  Column forms of two layout operations, read at an index.

  A vector of length `a` viewed as an `[a, 1]` column by a shape cast reads, at `(p, 0)`, the vector at `p`, and the column
  viewed back as a vector reads, at `p`, the column at `(p, 0)`; an `[a, 1]` column broadcast along its unit axis to `[a, b]`
  reads, at `(p, q)`, the column at `(p, 0)`. Together they are what a sum along the last axis that keeps the axis (a row
  sum stored as a column, then spread over the row) reads at an index.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column cast to `[a]` reads, at `p`, the column's entry of row `p`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.PayCombine.lean ====
/-
  The two combine stages of the graph convolution, entry by entry.

  Each stage takes a row block of neighbour aggregates, the block's own transformed features, the column of squared
  normalizers and the bias row, forms  agg + h · nsq + b  at every entry, and then applies its activation: the first a
  cut-off below at zero, the second a softmax along the row taken the stable way.  Read at entry (p, q) the block
  arithmetic is exactly the entrywise formula: a cast to the same shape is the identity, a column spread over the row
  reads the column at row p, a row spread over the rows reads the row at column q, a reduction along the row that keeps
  its axis and is spread back reads the row's fold at every column.
-/
import proofs.«138460_j58067957842339_2_alg».proof.Proof.Gen.KernelIdeal.Skeleton
import proofs.«138460_j58067957842339_2_alg».proof.Proof.Spec
import proofs.«138460_j58067957842339_2_alg».proof.Proof.LibColumn
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.PayCombine

open Cert.KernelIdeal Cert.KernelIdeal.Gen Idealize.ShloMosaic Idealize.ShloMosaic.ValueIdx

/-- The first stage at entry (p, q): the pre-activation cut off below at zero. -/
theorem pay1_apply (x0 x1 : Vec Ideal S5000x128 .f32) (x2 : Vec Ideal S5000x1 .f32) (x3 : Vec Ideal S1x128 .f32)
    (p : Fin 5000) (q : Fin 128) :
    k1_pay1 (F := Ideal) x0 x1 x2 x3 (ix2 p q) = Cert.Gcn.reluOut x0 x1 x2 x3 (ix2 p q) := by
  unfold k1_pay1
  rw [Cert.Gcn.reluOut_apply]
  simp only [shapeCast_self]
  rw [maximumf_apply, addf_apply, addf_apply, mulf_apply, broadcast_apply,
    Cert.Lib.Column.broadcastTo_a1_ab_apply, broadcastTo_1b_ab_apply]
  rfl

/-- The index a reduction along the row axis inserts at row p and column k is (p, k). -/
theorem lift_row (p : Fin 5000) (k : Fin (S5000x64.size 1)) :
    reduces_S5000x64_S5000.lift (ix1 p) k = ix2 p k := by
  funext a
  match a with
  | ⟨0, _⟩ => exact Fin.ext rfl
  | ⟨1, _⟩ => exact Fin.ext rfl

/-- The second stage's pre-activation block at entry (p, k):  agg + h · nsq + b. -/
theorem preBlock_apply (x0 x1 : Vec Ideal S5000x64 .f32) (x2 : Vec Ideal S5000x1 .f32) (x3 : Vec Ideal S1x64 .f32)
    (p : Fin 5000) (k : Fin 64) :
    (addf (addf (shapeCast S5000x64 x0 shapeCasts_S5000x64_S5000x64)
        (mulf (shapeCast S5000x64 x1 shapeCasts_S5000x64_S5000x64)
          (broadcastTo S5000x64 (shapeCast S5000x1 x2 shapeCasts_S5000x1_S5000x1) broadcasts_S5000x1_S5000x64)))
      (broadcastTo S5000x64 (shapeCast S1x64 x3 shapeCasts_S1x64_S1x64) broadcasts_S1x64_S5000x64)
        : FVec Ideal S5000x64 .f32) (ix2 p k)
      = Cert.Gcn.pre x0 x1 x2 x3 p k := by
  simp only [shapeCast_self]
  rw [addf_apply, addf_apply, mulf_apply, Cert.Lib.Column.broadcastTo_a1_ab_apply, broadcastTo_1b_ab_apply]
  rfl

/-- The row maximum of a block, taken along the row from minus infinity, at row r: the fold of max over the row. -/
theorem rowMax_block_apply (Z : FVec Ideal S5000x64 .f32) (r : Fin 5000) :
    multiReduction .maximumf [1] S5000 Z 0xFF800000#32 reduces_S5000x64_S5000 (.inl rfl) rfl (ix1 r)
      = Cert.Gcn.rowMax (fun k : Fin 64 => Z (ix2 r k)) := by
  refine (Ideal.multiReduction_maximumf_single Z 0xFF800000#32 reduces_S5000x64_S5000 (.inl rfl) rfl (ix1 r)).trans ?_
  have hl : (Z ∘ reduces_S5000x64_S5000.lift (ix1 r)) = fun k : Fin 64 => Z (ix2 r k) :=
    funext fun k => congrArg Z (lift_row r k)
  rw [hl]
  rfl

/-- The row sum of a block, taken along the row from zero, at row r: the sum over the row. -/
theorem rowSum_block_apply (E : FVec Ideal S5000x64 .f32) (r : Fin 5000) :
    multiReduction .add [1] S5000 E 0x00000000#32 reduces_S5000x64_S5000 (.inl rfl) rfl (ix1 r)
      = ∑ k : Fin 64, E (ix2 r k) := by
  refine (Ideal.multiReduction_add_single E 0x00000000#32 reduces_S5000x64_S5000 (.inl rfl) rfl (ix1 r)).trans ?_
  exact Finset.sum_congr rfl fun k _ => congrArg E (lift_row r k)

/-- A row fold kept as a column and spread back over the row reads, at (p, q), the fold of row p. -/
theorem spread_apply (v : FVec Ideal S5000 .f32) (p : Fin 5000) (q : Fin 64) :
    broadcastTo S5000x64 (shapeCast S5000x1 v shapeCasts_S5000_S5000x1) broadcasts_S5000x1_S5000x64 (ix2 p q) = v (ix1 p) := by
  rw [Cert.Lib.Column.broadcastTo_a1_ab_apply, Cert.Lib.Column.shapeCast_a_a1_apply]

/-- The stable softmax of a block along its rows, at entry (p, q). -/
theorem softmax_block_apply (Z : FVec Ideal S5000x64 .f32) (p : Fin 5000) (q : Fin 64) :
    divf
      (exp (subf Z (broadcastTo S5000x64 (shapeCast S5000x1
        (multiReduction .maximumf [1] S5000 Z 0xFF800000#32 reduces_S5000x64_S5000 (.inl rfl) rfl)
        shapeCasts_S5000_S5000x1) broadcasts_S5000x1_S5000x64)))
      (broadcastTo S5000x64 (shapeCast S5000x1
        (multiReduction .add [1] S5000
          (exp (subf Z (broadcastTo S5000x64 (shapeCast S5000x1
            (multiReduction .maximumf [1] S5000 Z 0xFF800000#32 reduces_S5000x64_S5000 (.inl rfl) rfl)
            shapeCasts_S5000_S5000x1) broadcasts_S5000x1_S5000x64)))
          0x00000000#32 reduces_S5000x64_S5000 (.inl rfl) rfl)
        shapeCasts_S5000_S5000x1) broadcasts_S5000x1_S5000x64)
      (ix2 p q)
      = Cert.Gcn.softmaxRow (fun k : Fin 64 => Z (ix2 p k)) q := by
  have hE : ∀ k : Fin 64,
      exp (subf Z (broadcastTo S5000x64 (shapeCast S5000x1
        (multiReduction .maximumf [1] S5000 Z 0xFF800000#32 reduces_S5000x64_S5000 (.inl rfl) rfl)
        shapeCasts_S5000_S5000x1) broadcasts_S5000x1_S5000x64)) (ix2 p k)
        = Ideal.exp (Z (ix2 p k) - Cert.Gcn.rowMax (fun k : Fin 64 => Z (ix2 p k))) := by
    intro k
    show Ideal.exp (subf Z _ (ix2 p k)) = _
    rw [subf_apply, spread_apply, rowMax_block_apply]
  rw [divf_apply, spread_apply, rowSum_block_apply, hE q]
  unfold Cert.Gcn.softmaxRow
  exact congrArg (Ideal.div _) (Finset.sum_congr rfl fun k _ => hE k)

/-- The second stage at entry (p, q): the softmax of row p's pre-activations at column q. -/
theorem pay3_apply (x0 x1 : Vec Ideal S5000x64 .f32) (x2 : Vec Ideal S5000x1 .f32) (x3 : Vec Ideal S1x64 .f32)
    (p : Fin 5000) (q : Fin 64) :
    k3_pay1 (F := Ideal) x0 x1 x2 x3 (ix2 p q) = Cert.Gcn.softmaxOut x0 x1 x2 x3 (ix2 p q) := by
  unfold k3_pay1
  rw [Cert.Gcn.softmaxOut_apply]
  refine (softmax_block_apply _ p q).trans ?_
  exact congrArg (fun z => Cert.Gcn.softmaxRow z q) (funext fun k => preBlock_apply x0 x1 x2 x3 p k)

end Cert.KernelIdeal.PayCombine

end
-- ==== Proof.Region1.lean ====
/-
  The first layer's combine launch, read as one array.

  The launch visits twenty row blocks of 5000 rows.  At block t the body reads rows 5000·t … 5000·t + 4999 of the
  neighbour aggregate, of the transformed features and of the squared-normalizer column, and the whole bias row, and
  writes back over the same rows of the output the pre-activation cut off below at zero.  Every entry depends
  only on its own row, so what block t writes back is block t of the layer's output taken over the whole arrays; the
  twenty blocks tile the rows, and the output array ends as that layer output.
-/
import proofs.«138460_j58067957842339_2_alg».proof.Proof.Gen.KernelIdeal.Frame
import proofs.«138460_j58067957842339_2_alg».proof.Proof.PayCombine
import proofs.«138460_j58067957842339_2_alg».proof.Proof.SpecCongr
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored block, as a whole, is the layer output of its four loaded blocks. -/
theorem pay_eq (x0 x1 : Vec Ideal S5000x128 .f32) (x2 : Vec Ideal S5000x1 .f32) (x3 : Vec Ideal S1x128 .f32) :
    k1_pay1 (F := Ideal) x0 x1 x2 x3 = Cert.Gcn.reluOut (n := 5000) (d := 128) x0 x1 x2 x3 := by
  funext j
  obtain ⟨p, q, rfl⟩ : ∃ (p : Fin 5000) (q : Fin 128), j = ix2 p q := ⟨j 0, j 1, eq_ix2 j⟩
  exact Cert.KernelIdeal.PayCombine.pay1_apply x0 x1 x2 x3 p q

/-- The printed index maps over the grid: the aggregate, feature, normalizer and output windows sit at row block t,
    column block 0; the bias window is the whole row at every point. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The layer output over the four arrays as the launch finds them. -/
abbrev G (c : Dev nD) : Cert.Gcn.Mat 100000 128 :=
  Cert.Gcn.reluOut (n := 100000) (d := 128) (V c main_v41) (V c main_v29) (V c main_v28) (V c main_v42)

/-- What point t writes back is block t of the layer output: row p of point t's blocks is row 5000·t + p of the arrays. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S1x128) hz]
  obtain ⟨e0, e1, e2, e3, e4, e5, e6, e7, e8, e9⟩ := idx_facts t
  funext j
  show k1_pay1 (F := Ideal) (iblk1 V c 0 t) (iblk1 V c 1 t) (iblk1 V c 2 t) (iblk1 V c 3 t) j = G V c (((cfg1.win 4).blk t).view.emb j)
  refine (congrFun (pay_eq (iblk1 V c 0 t) (iblk1 V c 1 t) (iblk1 V c 2 t) (iblk1 V c 3 t)) j).trans ?_
  have hj0 : (j 0).val < 5000 := (j 0).isLt
  have hj1 : (j 1).val < 128 := (j 1).isLt
  have hemb : (((cfg1.win 4).blk t).view.emb j) = ix2 (n0 := 100000) (n1 := 128) ((((cfg1.win 4).blk t).view.emb j) 0) (j 1) := by
    funext a; apply Fin.ext
    match a with
    | ⟨0, _⟩ => rfl
    | ⟨1, _⟩ => show win1_4.index t (1 : Fin 2) * 128 + 1 * (j 1).val = (j 1).val; omega
  refine (congrArg (Cert.Gcn.reluOut (n := 5000) (d := 128) (iblk1 V c 0 t) (iblk1 V c 1 t) (iblk1 V c 2 t) (iblk1 V c 3 t)) (eq_ix2 (n0 := 5000) (n1 := 128) j)).trans ?_
  refine Eq.trans ?_ (congrArg (G V c) hemb.symm)
  refine Cert.Gcn.reluOut_congr (n := 5000) (n' := 100000) (d := 128) (iblk1 V c 0 t) (iblk1 V c 1 t) (iblk1 V c 2 t) (iblk1 V c 3 t)
    (V c main_v41) (V c main_v29) (V c main_v28) (V c main_v42) (j 0) ((((cfg1.win 4).blk t).view.emb j) 0) (j 1) (fun k => ?_)
  refine Cert.Gcn.pre_congr (n := 5000) (n' := 100000) (d := 128) (iblk1 V c 0 t) (iblk1 V c 1 t) (iblk1 V c 2 t) (iblk1 V c 3 t)
    (V c main_v41) (V c main_v29) (V c main_v28) (V c main_v42) (j 0) ((((cfg1.win 4).blk t).view.emb j) 0) k ?_ ?_ ?_ ?_
  · show V c main_v41 (((cfg1.win 0).blk t).view.emb (ix2 (j 0) k)) = _
    refine congrArg (V c main_v41) ?_
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * k.val = k.val; omega
  · show V c main_v29 (((cfg1.win 1).blk t).view.emb (ix2 (j 0) k)) = _
    refine congrArg (V c main_v29) ?_
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * k.val = k.val; omega
  · show V c main_v28 (((cfg1.win 2).blk t).view.emb (ix2 (j 0) (0 : Fin 1))) = _
    refine congrArg (V c main_v28) ?_
    funext a; apply Fin.ext
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  · show V c main_v42 (((cfg1.win 3).blk t).view.emb (ix2 (0 : Fin 1) k)) = _
    refine congrArg (V c main_v42) ?_
    funext a; apply Fin.ext
    match a with
    | ⟨0, _⟩ => show win1_3.index t (0 : Fin 2) * 1 + 1 * 0 = 0; omega
    | ⟨1, _⟩ => show win1_3.index t (1 : Fin 2) * 128 + 1 * k.val = k.val; omega

/-- An index of the output array is in point t's block iff each coordinate is in the block's range on its axis. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v43).slice (win1_4.rect t)).set ↔ _
  rw [View.set_slice_whole, Rect.mem_set_unit]
  exact Iff.rfl

/-- Every row lies in the block of the point numbered by the row's quotient by 5000. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_4 _, ?_⟩
  rw [mem_blk]
  obtain ⟨e0, e1, e2, e3, e4, e5, e6, e7, e8, e9⟩ := idx_facts ⟨(i 0).val / 5000, by rw [hN]; omega⟩
  intro a
  match a with
  | ⟨0, _⟩ =>
    show win1_4.index _ (0 : Fin 2) * 5000 ≤ (i 0).val ∧ (i 0).val < win1_4.index _ (0 : Fin 2) * 5000 + 5000
    rw [e8]; show (i 0).val / 5000 * 5000 ≤ (i 0).val ∧ (i 0).val < (i 0).val / 5000 * 5000 + 5000; omega
  | ⟨1, _⟩ =>
    show win1_4.index _ (1 : Fin 2) * 128 ≤ (i 1).val ∧ (i 1).val < win1_4.index _ (1 : Fin 2) * 128 + 128
    rw [e9]; omega

/-- The output array after the launch is the layer output over the four arrays the launch found. -/
theorem final (c : Dev nD) : (dat1 V c).arrAt 4 cfg1.N = G V c :=
  (dat1 V c).arrAt_eq_of_cover 4 (G V c) (fun t _ => flushed_eq V c t) (cover)

end Cert.KernelIdeal.Region1

end
-- ==== Proof.Region2.lean ====
/-
  The second dense transform's launch, read as one array.

  The launch visits twenty row blocks of 5000 rows.  At block t the body multiplies rows 5000·t … 5000·t + 4999 of the
  left array by the whole right matrix and writes the product back over the same rows of the output, so what block t
  writes back is block t of the matrix product of the two whole arrays; the twenty blocks tile the output's rows, and
  the output array ends as that product.
-/
import proofs.«138460_j58067957842339_2_alg».proof.Proof.Gen.KernelIdeal.Frame
import proofs.«138460_j58067957842339_2_alg».proof.Proof.MatPay
import proofs.«138460_j58067957842339_2_alg».proof.Proof.SpecCongr
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left and output windows sit at row block t, column block 0; the right
    window is the whole matrix at every point. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The matrix product of the two arrays as the launch finds them. -/
abbrev G (c : Dev nD) : Cert.Gcn.Mat 100000 64 :=
  Cert.Gcn.matProd (n := 100000) (k := 128) (d := 64) (V c main_v43) (V c main_arg4)

/-- What point t writes back is block t of the product: row p of the block is row 5000·t + p of the left array. -/
theorem flushed_eq (c : Dev nD) (t : Fin cfg2.N) :
    (dat2 V c).flushed 2 t = ((cfg2.win 2).blk t).view.read (Elt Ideal) (G V c) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  obtain ⟨e0, e1, e2, e3, e4, e5⟩ := idx_facts t
  funext j
  show k2_pay1 (F := Ideal) (iblk2 V c 0 t) (iblk2 V c 1 t) j = G V c (((cfg2.win 2).blk t).view.emb j)
  refine (congrFun (Cert.KernelIdeal.MatPay.pay2_eq (iblk2 V c 0 t) (iblk2 V c 1 t)) j).trans ?_
  have hj0 : (j 0).val < 5000 := (j 0).isLt
  have hj1 : (j 1).val < 64 := (j 1).isLt
  refine (congrArg (Cert.Gcn.matProd (n := 5000) (k := 128) (d := 64) (iblk2 V c 0 t) (iblk2 V c 1 t)) (eq_ix2 (n0 := 5000) (n1 := 64) j)).trans ?_
  refine Eq.trans ?_ (congrArg (G V c) (eq_ix2 (n0 := 100000) (n1 := 64) (((cfg2.win 2).blk t).view.emb j)).symm)
  refine Cert.Gcn.matProd_congr (n := 5000) (n' := 100000) (k := 128) (d := 64) (iblk2 V c 0 t) (iblk2 V c 1 t) (V c main_v43) (V c main_arg4) _ _ _ _ (fun k => ?_) (fun k => ?_)
  · show V c main_v43 (((cfg2.win 0).blk t).view.emb (ix2 (j 0) k)) = _
    refine congrArg (V c main_v43) ?_
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · show V c main_arg4 (((cfg2.win 1).blk t).view.emb (ix2 k (j 1))) = _
    refine congrArg (V c main_arg4) ?_
    funext a; apply Fin.ext
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega

/-- An index of the output array is in point t's block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v44).slice (win2_2.rect t)).set ↔ _
  rw [View.set_slice_whole, Rect.mem_set_unit]
  exact Iff.rfl

/-- Every row lies in the block of the point numbered by the row's quotient by 5000. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_2 _, ?_⟩
  rw [mem_blk]
  obtain ⟨e0, e1, e2, e3, e4, e5⟩ := idx_facts ⟨(i 0).val / 5000, by rw [hN]; omega⟩
  intro a
  match a with
  | ⟨0, _⟩ =>
    show win2_2.index _ (0 : Fin 2) * 5000 ≤ (i 0).val ∧ (i 0).val < win2_2.index _ (0 : Fin 2) * 5000 + 5000
    rw [e4]; show (i 0).val / 5000 * 5000 ≤ (i 0).val ∧ (i 0).val < (i 0).val / 5000 * 5000 + 5000; omega
  | ⟨1, _⟩ =>
    show win2_2.index _ (1 : Fin 2) * 64 ≤ (i 1).val ∧ (i 1).val < win2_2.index _ (1 : Fin 2) * 64 + 64
    rw [e5]; omega

/-- The output array after the launch is the matrix product of the two arrays the launch found. -/
theorem final (c : Dev nD) : (dat2 V c).arrAt 2 cfg2.N = G V c :=
  (dat2 V c).arrAt_eq_of_cover 2 (G V c) (fun t _ => flushed_eq V c t) (cover)

end Cert.KernelIdeal.Region2

end
-- ==== Proof.Region3.lean ====
/-
  The second layer's combine launch, read as one array.

  The launch visits twenty row blocks of 5000 rows.  At block t the body reads rows 5000·t … 5000·t + 4999 of the
  neighbour aggregate, of the transformed features and of the squared-normalizer column, and the whole bias row, and
  writes back over the same rows of the output the softmax of each row of pre-activations.  Every row depends
  only on its own row, so what block t writes back is block t of the layer's output taken over the whole arrays; the
  twenty blocks tile the rows, and the output array ends as that layer output.
-/
import proofs.«138460_j58067957842339_2_alg».proof.Proof.Gen.KernelIdeal.Frame
import proofs.«138460_j58067957842339_2_alg».proof.Proof.PayCombine
import proofs.«138460_j58067957842339_2_alg».proof.Proof.SpecCongr
import Idealize.ShloMosaic.Lib.Pipeline.Value

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored block, as a whole, is the layer output of its four loaded blocks. -/
theorem pay_eq (x0 x1 : Vec Ideal S5000x64 .f32) (x2 : Vec Ideal S5000x1 .f32) (x3 : Vec Ideal S1x64 .f32) :
    k3_pay1 (F := Ideal) x0 x1 x2 x3 = Cert.Gcn.softmaxOut (n := 5000) (d := 64) x0 x1 x2 x3 := by
  funext j
  obtain ⟨p, q, rfl⟩ : ∃ (p : Fin 5000) (q : Fin 64), j = ix2 p q := ⟨j 0, j 1, eq_ix2 j⟩
  exact Cert.KernelIdeal.PayCombine.pay3_apply x0 x1 x2 x3 p q

/-- The printed index maps over the grid: the aggregate, feature, normalizer and output windows sit at row block t,
    column block 0; the bias window is the whole row at every point. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The layer output over the four arrays as the launch finds them. -/
abbrev G (c : Dev nD) : Cert.Gcn.Mat 100000 64 :=
  Cert.Gcn.softmaxOut (n := 100000) (d := 64) (V c main_v56) (V c main_v44) (V c main_v28) (V c main_v57)

/-- What point t writes back is block t of the layer output: row p of point t's blocks is row 5000·t + p of the arrays. -/
theorem flushed_eq (c : Dev nD) (t : Fin cfg3.N) :
    (dat3 V c).flushed 4 t = ((cfg3.win 4).blk t).view.read (Elt Ideal) (G V c) := by
  show (cfg3.win 4).cut (grid3.coords t) ((dat3 V c).after 4 t) = _
  rw [after3_4]
  unfold out3_4
  rw [View.canon_unit_zero hz]
  simp only [View.ld_unit_zero (S := S5000x64) hz, View.ld_unit_zero (S := S5000x1) hz, View.ld_unit_zero (S := S1x64) hz]
  obtain ⟨e0, e1, e2, e3, e4, e5, e6, e7, e8, e9⟩ := idx_facts t
  funext j
  show k3_pay1 (F := Ideal) (iblk3 V c 0 t) (iblk3 V c 1 t) (iblk3 V c 2 t) (iblk3 V c 3 t) j = G V c (((cfg3.win 4).blk t).view.emb j)
  refine (congrFun (pay_eq (iblk3 V c 0 t) (iblk3 V c 1 t) (iblk3 V c 2 t) (iblk3 V c 3 t)) j).trans ?_
  have hj0 : (j 0).val < 5000 := (j 0).isLt
  have hj1 : (j 1).val < 64 := (j 1).isLt
  have hemb : (((cfg3.win 4).blk t).view.emb j) = ix2 (n0 := 100000) (n1 := 64) ((((cfg3.win 4).blk t).view.emb j) 0) (j 1) := by
    funext a; apply Fin.ext
    match a with
    | ⟨0, _⟩ => rfl
    | ⟨1, _⟩ => show win3_4.index t (1 : Fin 2) * 64 + 1 * (j 1).val = (j 1).val; omega
  refine (congrArg (Cert.Gcn.softmaxOut (n := 5000) (d := 64) (iblk3 V c 0 t) (iblk3 V c 1 t) (iblk3 V c 2 t) (iblk3 V c 3 t)) (eq_ix2 (n0 := 5000) (n1 := 64) j)).trans ?_
  refine Eq.trans ?_ (congrArg (G V c) hemb.symm)
  refine Cert.Gcn.softmaxOut_congr (n := 5000) (n' := 100000) (d := 64) (iblk3 V c 0 t) (iblk3 V c 1 t) (iblk3 V c 2 t) (iblk3 V c 3 t)
    (V c main_v56) (V c main_v44) (V c main_v28) (V c main_v57) (j 0) ((((cfg3.win 4).blk t).view.emb j) 0) (j 1) (fun k => ?_)
  refine Cert.Gcn.pre_congr (n := 5000) (n' := 100000) (d := 64) (iblk3 V c 0 t) (iblk3 V c 1 t) (iblk3 V c 2 t) (iblk3 V c 3 t)
    (V c main_v56) (V c main_v44) (V c main_v28) (V c main_v57) (j 0) ((((cfg3.win 4).blk t).view.emb j) 0) k ?_ ?_ ?_ ?_
  · show V c main_v56 (((cfg3.win 0).blk t).view.emb (ix2 (j 0) k)) = _
    refine congrArg (V c main_v56) ?_
    funext a; apply Fin.ext
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 64 + 1 * k.val = k.val; omega
  · show V c main_v44 (((cfg3.win 1).blk t).view.emb (ix2 (j 0) k)) = _
    refine congrArg (V c main_v44) ?_
    funext a; apply Fin.ext
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 64 + 1 * k.val = k.val; omega
  · show V c main_v28 (((cfg3.win 2).blk t).view.emb (ix2 (j 0) (0 : Fin 1))) = _
    refine congrArg (V c main_v28) ?_
    funext a; apply Fin.ext
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 1 + 1 * 0 = 0; omega
  · show V c main_v57 (((cfg3.win 3).blk t).view.emb (ix2 (0 : Fin 1) k)) = _
    refine congrArg (V c main_v57) ?_
    funext a; apply Fin.ext
    match a with
    | ⟨0, _⟩ => show win3_3.index t (0 : Fin 2) * 1 + 1 * 0 = 0; omega
    | ⟨1, _⟩ => show win3_3.index t (1 : Fin 2) * 64 + 1 * k.val = k.val; omega

/-- An index of the output array is in point t's block iff each coordinate is in the block's range on its axis. -/
theorem mem_blk (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v58).slice (win3_4.rect t)).set ↔ _
  rw [View.set_slice_whole, Rect.mem_set_unit]
  exact Iff.rfl

/-- Every row lies in the block of the point numbered by the row's quotient by 5000. -/
theorem cover (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 20 := N_3
  refine ⟨⟨(i 0).val / 5000, by rw [hN]; omega⟩, flush3_4 _, ?_⟩
  rw [mem_blk]
  obtain ⟨e0, e1, e2, e3, e4, e5, e6, e7, e8, e9⟩ := idx_facts ⟨(i 0).val / 5000, by rw [hN]; omega⟩
  intro a
  match a with
  | ⟨0, _⟩ =>
    show win3_4.index _ (0 : Fin 2) * 5000 ≤ (i 0).val ∧ (i 0).val < win3_4.index _ (0 : Fin 2) * 5000 + 5000
    rw [e8]; show (i 0).val / 5000 * 5000 ≤ (i 0).val ∧ (i 0).val < (i 0).val / 5000 * 5000 + 5000; omega
  | ⟨1, _⟩ =>
    show win3_4.index _ (1 : Fin 2) * 64 ≤ (i 1).val ∧ (i 1).val < win3_4.index _ (1 : Fin 2) * 64 + 64
    rw [e9]; omega

/-- The output array after the launch is the layer output over the four arrays the launch found. -/
theorem final (c : Dev nD) : (dat3 V c).arrAt 4 cfg3.N = G V c :=
  (dat3 V c).arrAt_eq_of_cover 4 (G V c) (fun t _ => flushed_eq V c t) (cover)

end Cert.KernelIdeal.Region3

end
-- ==== Proof.RefStages.lean ====
/-
  The reference graph convolution, stage by stage, in entrywise form.

  The reference computes each layer one array operation at a time.  Read at an entry, the first dense transform is the
  plain matrix product; the first combine is  max(agg + h · nsq + b, 0)  with agg the scatter-added neighbour features,
  h the transformed features, nsq the squared normalizer kept as a column and b the bias; the second dense transform is
  the matrix product of the first layer's output; and the second combine is the row softmax of  agg + h · nsq + b  taken
  the stable way.  The row maximum the reference subtracts is the larger of minus infinity and the row's fold of max
  from minus infinity, which is the fold itself since a fold of max is at least its starting value; its row sum starts
  from zero.  The aggregates stay opaque throughout: only their entries are named.
-/
import proofs.«138460_j58067957842339_2_alg».proof.Proof.Gen.ReferenceIdeal.Read
import proofs.«138460_j58067957842339_2_alg».proof.Proof.Spec
import proofs.«138460_j58067957842339_2_alg».proof.Proof.LibColumn
import Idealize.ShloMosaic.Lib.ValueLayout
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.Stages

open Cert.ReferenceIdeal Cert.ReferenceIdeal.Gen Cert.ReferenceIdeal.Read Idealize.ShloMosaic Idealize.ShloMosaic.ValueIdx

/-! ## The index functions of the layout operations, at an entry given by its coordinates -/

theorem lidx4_ix2 (p : Fin 100000) (q : Fin 128) (k : Fin 128) : lidx_main_v4 (ix2 p q) k = ix2 p k := by
  funext a; match a with | ⟨0, _⟩ => rfl | ⟨1, _⟩ => rfl
theorem ridx4_ix2 (p : Fin 100000) (q : Fin 128) (k : Fin 128) : ridx_main_v4 (ix2 p q) k = ix2 k q := by
  funext a; match a with | ⟨0, _⟩ => rfl | ⟨1, _⟩ => rfl
theorem lidx49_ix2 (p : Fin 100000) (q : Fin 64) (k : Fin 128) : lidx_main_v49 (ix2 p q) k = ix2 p k := by
  funext a; match a with | ⟨0, _⟩ => rfl | ⟨1, _⟩ => rfl
theorem ridx49_ix2 (p : Fin 100000) (q : Fin 64) (k : Fin 128) : ridx_main_v49 (ix2 p q) k = ix2 k q := by
  funext a; match a with | ⟨0, _⟩ => rfl | ⟨1, _⟩ => rfl
theorem idx42_ix2 (p : Fin 100000) (q : Fin 128) : idx_main_v42 (ix2 p q) = ix2 p (0 : Fin 1) := by
  funext a; match a with | ⟨0, _⟩ => rfl | ⟨1, _⟩ => rfl
theorem idx45_46_ix2 (p : Fin 100000) (q : Fin 128) : idx_main_v45 (idx_main_v46 (ix2 p q)) = ix1 q := by
  funext a; match a with | ⟨0, _⟩ => rfl
theorem idx87_ix2 (p : Fin 100000) (q : Fin 64) : idx_main_v87 (ix2 p q) = ix2 p (0 : Fin 1) := by
  funext a; match a with | ⟨0, _⟩ => rfl | ⟨1, _⟩ => rfl
theorem idx90_91_ix2 (p : Fin 100000) (q : Fin 64) : idx_main_v90 (idx_main_v91 (ix2 p q)) = ix1 q := by
  funext a; match a with | ⟨0, _⟩ => rfl
theorem idx96_97_ix2 (p : Fin 100000) (q : Fin 64) : idx_main_v96 (idx_main_v97 (ix2 p q)) = ix1 p := by
  funext a; match a with | ⟨0, _⟩ => rfl
theorem idx101_102_ix2 (p : Fin 100000) (q : Fin 64) : idx_main_v101 (idx_main_v102 (ix2 p q)) = ix1 p := by
  funext a; match a with | ⟨0, _⟩ => rfl
theorem idx100_ix1 (p : Fin 100000) (k : Fin 64) : idx_main_v100 (ix1 p) k = ix2 p k := by
  funext a; match a with | ⟨0, _⟩ => rfl | ⟨1, _⟩ => rfl

/-! ## The two dense transforms -/

/-- The first dense transform is the matrix product of the features and the first weight. -/
theorem h1_stage (x0 : (⟨S100000x128, .f32⟩ : BufTy).Contents (Elt Ideal)) (x2 : (⟨S128x128, .f32⟩ : BufTy).Contents (Elt Ideal)) :
    val_main_v4 (F := Ideal) x0 x2 = Cert.Gcn.matProd x0 x2 := by
  funext i
  obtain ⟨p, q, rfl⟩ : ∃ (p : Fin 100000) (q : Fin 128), i = ix2 p q := ⟨i 0, i 1, eq_ix2 i⟩
  rw [val_main_v4_apply, Cert.Gcn.matProd_apply]
  exact Finset.sum_congr rfl fun k _ => by rw [lidx4_ix2, ridx4_ix2]

/-- The second dense transform is the matrix product of the first layer's output and the second weight. -/
theorem h2_stage (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) :
    val_main_v49 (F := Ideal) x0 x1 x2 x3 x4 = Cert.Gcn.matProd (val_main_v48 (F := Ideal) x0 x1 x2 x3) x4 := by
  funext i
  obtain ⟨p, q, rfl⟩ : ∃ (p : Fin 100000) (q : Fin 64), i = ix2 p q := ⟨i 0, i 1, eq_ix2 i⟩
  rw [val_main_v49_apply, Cert.Gcn.matProd_apply]
  exact Finset.sum_congr rfl fun k _ => by rw [lidx49_ix2, ridx49_ix2]

/-! ## The first combine -/

/-- The first layer's output: the pre-activation  agg + h · nsq + b  cut off below at zero. -/
theorem relu_stage (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (hc : S128.ShapeCasts S1x128) :
    val_main_v48 (F := Ideal) x0 x1 x2 x3
      = Cert.Gcn.reluOut (val_main_v39 (F := Ideal) x0 x1 x2) (val_main_v4 (F := Ideal) x0 x2)
          (val_main_v41 (F := Ideal) x1) (shapeCast S1x128 x3 hc) := by
  funext i
  obtain ⟨p, q, rfl⟩ : ∃ (p : Fin 100000) (q : Fin 128), i = ix2 p q := ⟨i 0, i 1, eq_ix2 i⟩
  rw [Cert.Gcn.reluOut_apply, val_main_v48_apply, val_main_v47_apply, val_main_v44_apply, val_main_v43_apply,
    val_main_v42_apply, val_main_v46_apply, val_main_v45_apply, val_main_call0_v0_apply, val_main_call0_cst_apply,
    idx42_ix2, idx45_46_ix2]
  unfold Cert.Gcn.pre
  rw [shapeCast_a_1a_apply]
  simp only [Ideal.maximumf_def, Ideal.addf_def, Ideal.mulf_def, Ideal.ofBits_def]

/-! ## The second combine -/

/-- Reducing the row axis of a [100000, 64] array leaves its rows. -/
theorem reduces_row : S100000x64.Reduces [1] S100000 := by decide

/-- The index that reduction inserts at row p and column k is (p, k). -/
theorem lift_row (p : Fin 100000) (k : Fin (S100000x64.size 1)) : reduces_row.lift (ix1 p) k = ix2 p k := by
  funext a
  match a with
  | ⟨0, _⟩ => exact Fin.ext rfl
  | ⟨1, _⟩ => exact Fin.ext rfl

/-- A fold of max along the row axis of a [100000, 64] array from a rank-zero starting value, at row p: the fold of max
    over the row's 64 entries. -/
theorem hostRowMax_apply (Z : S100000x64.Idx → Ideal .f32) (init : S_.Idx → Ideal .f32) (p : Fin 100000) :
    Host.reduce (FloatOps.maximumf (F := Ideal) (φ := .f32)) Z init reducesTo_S100000x64_S100000_d1 h_S_ (ix1 p)
      = (Finset.univ : Finset (Fin 64)).fold max (init (Shape.Idx.first h_S_)) (fun k : Fin 64 => Z (ix2 p k)) := by
  rw [Host.reduce_eq_fold_single (FloatOps.maximumf (F := Ideal) (φ := .f32)) Z init
    reducesTo_S100000x64_S100000_d1 reduces_row h_S_ (ix1 p)]
  have hl : (Z ∘ reduces_row.lift (ix1 p)) = fun k : Fin 64 => Z (ix2 p k) :=
    funext fun k => congrArg Z (lift_row p k)
  rw [hl]
  rfl

/-- The second layer's pre-activation at entry (p, k):  agg + h · nsq + b. -/
theorem pre2_apply (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (hc : S64.ShapeCasts S1x64) (p : Fin 100000) (k : Fin 64) :
    val_main_v92 (F := Ideal) x0 x1 x2 x3 x4 x5 (ix2 p k)
      = Cert.Gcn.pre (val_main_v84 (F := Ideal) x0 x1 x2 x3 x4) (val_main_v49 (F := Ideal) x0 x1 x2 x3 x4)
          (val_main_v86 (F := Ideal) x1) (shapeCast S1x64 x5 hc) p k := by
  rw [val_main_v92_apply, val_main_v89_apply, val_main_v88_apply, val_main_v87_apply, val_main_v91_apply,
    val_main_v90_apply, idx87_ix2, idx90_91_ix2]
  unfold Cert.Gcn.pre
  rw [shapeCast_a_1a_apply]
  simp only [Ideal.addf_def, Ideal.mulf_def]

/-- The row maximum the reference subtracts, at row p: the larger of minus infinity and the row's fold of max from
    minus infinity, which is that fold. -/
theorem rowMax2_apply (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (p : Fin 100000) :
    val_main_v95 (F := Ideal) x0 x1 x2 x3 x4 x5 (ix1 p)
      = Cert.Gcn.rowMax (fun k : Fin 64 => val_main_v92 (F := Ideal) x0 x1 x2 x3 x4 x5 (ix2 p k)) := by
  have h93 : val_main_v93 (F := Ideal) x0 x1 x2 x3 x4 x5 (ix1 p)
      = Cert.Gcn.rowMax (fun k : Fin 64 => val_main_v92 (F := Ideal) x0 x1 x2 x3 x4 x5 (ix2 p k)) := by
    unfold val_main_v93
    rw [hostRowMax_apply, val_main_cst_18_apply]
    rfl
  rw [val_main_v95_apply, val_main_v94_apply, val_main_cst_19_apply, h93]
  unfold Cert.Gcn.rowMax
  simp only [Ideal.maximumf_def, Ideal.ofBits_def]
  exact max_eq_right ((Finset.le_fold_max _).mpr (Or.inl le_rfl))

/-- The exponential the reference takes at entry (p, k): of the pre-activation less the row's maximum. -/
theorem exp2_apply (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (p : Fin 100000) (k : Fin 64) :
    val_main_v99 (F := Ideal) x0 x1 x2 x3 x4 x5 (ix2 p k)
      = Ideal.exp (val_main_v92 (F := Ideal) x0 x1 x2 x3 x4 x5 (ix2 p k) - Cert.Gcn.rowMax (fun k : Fin 64 => val_main_v92 (F := Ideal) x0 x1 x2 x3 x4 x5 (ix2 p k))) := by
  rw [val_main_v99_apply, val_main_v98_apply, val_main_v97_apply, val_main_v96_apply, idx96_97_ix2, rowMax2_apply]
  simp only [Ideal.hostUnary_exp_def, Ideal.subf_def]

/-- The second layer's output: the row softmax of the pre-activations  agg + h · nsq + b. -/
theorem softmax_stage (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (hc : S64.ShapeCasts S1x64) :
    val_main_v103 (F := Ideal) x0 x1 x2 x3 x4 x5
      = Cert.Gcn.softmaxOut (val_main_v84 (F := Ideal) x0 x1 x2 x3 x4) (val_main_v49 (F := Ideal) x0 x1 x2 x3 x4)
          (val_main_v86 (F := Ideal) x1) (shapeCast S1x64 x5 hc) := by
  funext i
  obtain ⟨p, q, rfl⟩ : ∃ (p : Fin 100000) (q : Fin 64), i = ix2 p q := ⟨i 0, i 1, eq_ix2 i⟩
  have hs : val_main_v103 (F := Ideal) x0 x1 x2 x3 x4 x5 (ix2 p q)
      = Cert.Gcn.softmaxRow (fun k : Fin 64 => val_main_v92 (F := Ideal) x0 x1 x2 x3 x4 x5 (ix2 p k)) q := by
    rw [val_main_v103_apply, val_main_v102_apply, val_main_v101_apply, idx101_102_ix2, val_main_v100_apply,
      val_main_cst_20_apply, exp2_apply]
    unfold Cert.Gcn.softmaxRow
    simp only [Ideal.hostDivf_def, Ideal.ofBits_def, Ideal.ofBits_zero_f32, zero_add, idx100_ix1, exp2_apply]
  rw [hs, Cert.Gcn.softmaxOut_apply]
  exact congrArg (fun z => Cert.Gcn.softmaxRow z q) (funext fun k => pre2_apply x0 x1 x2 x3 x4 x5 hc p k)

end Cert.ReferenceIdeal.Stages

end
-- ==== Proof.Chain.lean ====
/-
  The idealized kernel's result is the reference's.

  The buffer contents at the seven segment boundaries are followed from the launch to the return.  The host stretches
  apply to their operands the same operations, in the same order, as the reference's program does (the edge endpoints,
  the degree normalizers and the edge coefficients before the first launch; the gather of source rows, their scaling
  and the scatter-add into destination rows before each combine), so each buffer a later step reads is, by unfolding
  the reference's stages, the reference's value of the same name.  The four launches are the four array functions of
  their operands read off in the launch modules: two matrix products, the first layer's cut-off pre-activation and the
  second layer's row softmax, which are the reference's dot products, its relu stage and its softmax stage.  The
  reference recomputes the normalizers and the edge coefficients for its second layer; the kernel reuses the first
  layer's, and the two computations are the same term.
-/
import proofs.«138460_j58067957842339_2_alg».proof.Proof.Gen.KernelIdeal.Frame
import proofs.«138460_j58067957842339_2_alg».proof.Proof.Gen.ReferenceIdeal.Read
import proofs.«138460_j58067957842339_2_alg».proof.Proof.Region0
import proofs.«138460_j58067957842339_2_alg».proof.Proof.Region1
import proofs.«138460_j58067957842339_2_alg».proof.Proof.Region2
import proofs.«138460_j58067957842339_2_alg».proof.Proof.Region3
import proofs.«138460_j58067957842339_2_alg».proof.Proof.RefStages

set_option maxRecDepth 16384

noncomputable section

namespace Cert.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Before the first launch: the edge endpoints, the coefficients, the squared normalizers; the arguments untouched -/

theorem w1_v1 : W1 m ρ c (Proc.devRef .tc main_v1) = Cert.ReferenceIdeal.Read.val_main_v1 (F := Ideal) (m ((c.tc : Thread nD τ).loc main_arg1)) := by
  show StableHlo.after hostOps0 (W0 m ρ c) (Proc.devRef .tc main_v1) = _
  after_results_simp
  rfl
theorem w1_v3 : W1 m ρ c (Proc.devRef .tc main_v3) = Cert.ReferenceIdeal.Read.val_main_v3 (F := Ideal) (m ((c.tc : Thread nD τ).loc main_arg1)) := by
  show StableHlo.after hostOps0 (W0 m ρ c) (Proc.devRef .tc main_v3) = _
  after_results_simp
  rfl
theorem w1_v26 : W1 m ρ c (Proc.devRef .tc main_v26) = Cert.ReferenceIdeal.Read.val_main_v34 (F := Ideal) (m ((c.tc : Thread nD τ).loc main_arg1)) := by
  show StableHlo.after hostOps0 (W0 m ρ c) (Proc.devRef .tc main_v26) = _
  after_results_simp
  rfl
theorem w1_v28 : W1 m ρ c (Proc.devRef .tc main_v28) = Cert.ReferenceIdeal.Read.val_main_v41 (F := Ideal) (m ((c.tc : Thread nD τ).loc main_arg1)) := by
  show StableHlo.after hostOps0 (W0 m ρ c) (Proc.devRef .tc main_v28) = _
  after_results_simp
  rfl
theorem w1_arg0 : W1 m ρ c (Proc.devRef .tc main_arg0) = (m ((c.tc : Thread nD τ).loc main_arg0)) := by
  show StableHlo.after hostOps0 (W0 m ρ c) (Proc.devRef .tc main_arg0) = _
  after_results_simp
theorem w1_arg2 : W1 m ρ c (Proc.devRef .tc main_arg2) = (m ((c.tc : Thread nD τ).loc main_arg2)) := by
  show StableHlo.after hostOps0 (W0 m ρ c) (Proc.devRef .tc main_arg2) = _
  after_results_simp
theorem w1_arg3 : W1 m ρ c (Proc.devRef .tc main_arg3) = (m ((c.tc : Thread nD τ).loc main_arg3)) := by
  show StableHlo.after hostOps0 (W0 m ρ c) (Proc.devRef .tc main_arg3) = _
  after_results_simp
theorem w1_arg4 : W1 m ρ c (Proc.devRef .tc main_arg4) = (m ((c.tc : Thread nD τ).loc main_arg4)) := by
  show StableHlo.after hostOps0 (W0 m ρ c) (Proc.devRef .tc main_arg4) = _
  after_results_simp
theorem w1_arg5 : W1 m ρ c (Proc.devRef .tc main_arg5) = (m ((c.tc : Thread nD τ).loc main_arg5)) := by
  show StableHlo.after hostOps0 (W0 m ρ c) (Proc.devRef .tc main_arg5) = _
  after_results_simp

/-! ## After the first launch: the transformed features; everything else as before -/

theorem w2_v29 : W2 m ρ c (Proc.devRef .tc main_v29) = Cert.ReferenceIdeal.Read.val_main_v4 (F := Ideal) (m ((c.tc : Thread nD τ).loc main_arg0)) (m ((c.tc : Thread nD τ).loc main_arg2)) :=
  (W2_arr m ρ c 2).trans ((Cert.KernelIdeal.Region0.final (V1 m ρ) c).trans (by
    show Cert.Gcn.matProd (n := 100000) (k := 128) (d := 128) (W1 m ρ c (Proc.devRef .tc main_arg0)) (W1 m ρ c (Proc.devRef .tc main_arg2)) = _
    rw [w1_arg0 m ρ c, w1_arg2 m ρ c]
    exact (Cert.ReferenceIdeal.Stages.h1_stage (m ((c.tc : Thread nD τ).loc main_arg0)) (m ((c.tc : Thread nD τ).loc main_arg2))).symm))
theorem w2_v1 : W2 m ρ c (Proc.devRef .tc main_v1) = Cert.ReferenceIdeal.Read.val_main_v1 (F := Ideal) (m ((c.tc : Thread nD τ).loc main_arg1)) :=
  (W2_of_ne m ρ c main_v1 (by decide)).trans (w1_v1 m ρ c)
theorem w2_v3 : W2 m ρ c (Proc.devRef .tc main_v3) = Cert.ReferenceIdeal.Read.val_main_v3 (F := Ideal) (m ((c.tc : Thread nD τ).loc main_arg1)) :=
  (W2_of_ne m ρ c main_v3 (by decide)).trans (w1_v3 m ρ c)
theorem w2_v26 : W2 m ρ c (Proc.devRef .tc main_v26) = Cert.ReferenceIdeal.Read.val_main_v34 (F := Ideal) (m ((c.tc : Thread nD τ).loc main_arg1)) :=
  (W2_of_ne m ρ c main_v26 (by decide)).trans (w1_v26 m ρ c)
theorem w2_v28 : W2 m ρ c (Proc.devRef .tc main_v28) = Cert.ReferenceIdeal.Read.val_main_v41 (F := Ideal) (m ((c.tc : Thread nD τ).loc main_arg1)) :=
  (W2_of_ne m ρ c main_v28 (by decide)).trans (w1_v28 m ρ c)
theorem w2_arg3 : W2 m ρ c (Proc.devRef .tc main_arg3) = (m ((c.tc : Thread nD τ).loc main_arg3)) :=
  (W2_of_ne m ρ c main_arg3 (by decide)).trans (w1_arg3 m ρ c)
theorem w2_arg4 : W2 m ρ c (Proc.devRef .tc main_arg4) = (m ((c.tc : Thread nD τ).loc main_arg4)) :=
  (W2_of_ne m ρ c main_arg4 (by decide)).trans (w1_arg4 m ρ c)
theorem w2_arg5 : W2 m ρ c (Proc.devRef .tc main_arg5) = (m ((c.tc : Thread nD τ).loc main_arg5)) :=
  (W2_of_ne m ρ c main_arg5 (by decide)).trans (w1_arg5 m ρ c)

/-! ## Before the first combine: the neighbour aggregate and the bias row -/

theorem w3_v41 : W3 m ρ c (Proc.devRef .tc main_v41) = Cert.ReferenceIdeal.Read.val_main_v39 (F := Ideal) (m ((c.tc : Thread nD τ).loc main_arg0)) (m ((c.tc : Thread nD τ).loc main_arg1)) (m ((c.tc : Thread nD τ).loc main_arg2)) := by
  show StableHlo.after hostOps1 (W2 m ρ c) (Proc.devRef .tc main_v41) = _
  after_results_simp
  rw [w2_v3 m ρ c, w2_v1 m ρ c, w2_v29 m ρ c, w2_v26 m ρ c]
  rfl
theorem w3_v42 : W3 m ρ c (Proc.devRef .tc main_v42) = (shapeCast S1x128 (m ((c.tc : Thread nD τ).loc main_arg3)) shapeCasts_S128_S1x128) := by
  show StableHlo.after hostOps1 (W2 m ρ c) (Proc.devRef .tc main_v42) = _
  after_results_simp
  rw [w2_arg3 m ρ c]
  rfl
theorem w3_v29 : W3 m ρ c (Proc.devRef .tc main_v29) = Cert.ReferenceIdeal.Read.val_main_v4 (F := Ideal) (m ((c.tc : Thread nD τ).loc main_arg0)) (m ((c.tc : Thread nD τ).loc main_arg2)) :=
  (show StableHlo.after hostOps1 (W2 m ρ c) (Proc.devRef .tc main_v29) = W2 m ρ c (Proc.devRef .tc main_v29) by after_results_simp).trans (w2_v29 m ρ c)
theorem w3_v1 : W3 m ρ c (Proc.devRef .tc main_v1) = Cert.ReferenceIdeal.Read.val_main_v1 (F := Ideal) (m ((c.tc : Thread nD τ).loc main_arg1)) :=
  (show StableHlo.after hostOps1 (W2 m ρ c) (Proc.devRef .tc main_v1) = W2 m ρ c (Proc.devRef .tc main_v1) by after_results_simp).trans (w2_v1 m ρ c)
theorem w3_v3 : W3 m ρ c (Proc.devRef .tc main_v3) = Cert.ReferenceIdeal.Read.val_main_v3 (F := Ideal) (m ((c.tc : Thread nD τ).loc main_arg1)) :=
  (show StableHlo.after hostOps1 (W2 m ρ c) (Proc.devRef .tc main_v3) = W2 m ρ c (Proc.devRef .tc main_v3) by after_results_simp).trans (w2_v3 m ρ c)
theorem w3_v26 : W3 m ρ c (Proc.devRef .tc main_v26) = Cert.ReferenceIdeal.Read.val_main_v34 (F := Ideal) (m ((c.tc : Thread nD τ).loc main_arg1)) :=
  (show StableHlo.after hostOps1 (W2 m ρ c) (Proc.devRef .tc main_v26) = W2 m ρ c (Proc.devRef .tc main_v26) by after_results_simp).trans (w2_v26 m ρ c)
theorem w3_v28 : W3 m ρ c (Proc.devRef .tc main_v28) = Cert.ReferenceIdeal.Read.val_main_v41 (F := Ideal) (m ((c.tc : Thread nD τ).loc main_arg1)) :=
  (show StableHlo.after hostOps1 (W2 m ρ c) (Proc.devRef .tc main_v28) = W2 m ρ c (Proc.devRef .tc main_v28) by after_results_simp).trans (w2_v28 m ρ c)
theorem w3_arg4 : W3 m ρ c (Proc.devRef .tc main_arg4) = (m ((c.tc : Thread nD τ).loc main_arg4)) :=
  (show StableHlo.after hostOps1 (W2 m ρ c) (Proc.devRef .tc main_arg4) = W2 m ρ c (Proc.devRef .tc main_arg4) by after_results_simp).trans (w2_arg4 m ρ c)
theorem w3_arg5 : W3 m ρ c (Proc.devRef .tc main_arg5) = (m ((c.tc : Thread nD τ).loc main_arg5)) :=
  (show StableHlo.after hostOps1 (W2 m ρ c) (Proc.devRef .tc main_arg5) = W2 m ρ c (Proc.devRef .tc main_arg5) by after_results_simp).trans (w2_arg5 m ρ c)

/-! ## After the first combine: the first layer's output -/

theorem w4_v43 : W4 m ρ c (Proc.devRef .tc main_v43) = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg3)) :=
  (W4_arr m ρ c 4).trans ((Cert.KernelIdeal.Region1.final (V3 m ρ) c).trans (by
    show Cert.Gcn.reluOut (n := 100000) (d := 128) (W3 m ρ c (Proc.devRef .tc main_v41)) (W3 m ρ c (Proc.devRef .tc main_v29)) (W3 m ρ c (Proc.devRef .tc main_v28)) (W3 m ρ c (Proc.devRef .tc main_v42)) = _
    rw [w3_v41 m ρ c, w3_v29 m ρ c, w3_v28 m ρ c, w3_v42 m ρ c]
    exact (Cert.ReferenceIdeal.Stages.relu_stage (m ((c.tc : Thread nD τ).loc main_arg0)) (m ((c.tc : Thread nD τ).loc main_arg1)) (m ((c.tc : Thread nD τ).loc main_arg2)) (m ((c.tc : Thread nD τ).loc main_arg3)) shapeCasts_S128_S1x128).symm))
theorem w4_v1 : W4 m ρ c (Proc.devRef .tc main_v1) = Cert.ReferenceIdeal.Read.val_main_v1 (F := Ideal) (m ((c.tc : Thread nD τ).loc main_arg1)) :=
  (W4_of_ne m ρ c main_v1 (by decide)).trans (w3_v1 m ρ c)
theorem w4_v3 : W4 m ρ c (Proc.devRef .tc main_v3) = Cert.ReferenceIdeal.Read.val_main_v3 (F := Ideal) (m ((c.tc : Thread nD τ).loc main_arg1)) :=
  (W4_of_ne m ρ c main_v3 (by decide)).trans (w3_v3 m ρ c)
theorem w4_v26 : W4 m ρ c (Proc.devRef .tc main_v26) = Cert.ReferenceIdeal.Read.val_main_v34 (F := Ideal) (m ((c.tc : Thread nD τ).loc main_arg1)) :=
  (W4_of_ne m ρ c main_v26 (by decide)).trans (w3_v26 m ρ c)
theorem w4_v28 : W4 m ρ c (Proc.devRef .tc main_v28) = Cert.ReferenceIdeal.Read.val_main_v41 (F := Ideal) (m ((c.tc : Thread nD τ).loc main_arg1)) :=
  ((W4_arr m ρ c 2).trans (((dat1 (V3 m ρ) c).arrAt_in 2 rfl _).trans (A_eq1 (V3 m ρ) c 2))).trans (w3_v28 m ρ c)
theorem w4_arg4 : W4 m ρ c (Proc.devRef .tc main_arg4) = (m ((c.tc : Thread nD τ).loc main_arg4)) :=
  (W4_of_ne m ρ c main_arg4 (by decide)).trans (w3_arg4 m ρ c)
theorem w4_arg5 : W4 m ρ c (Proc.devRef .tc main_arg5) = (m ((c.tc : Thread nD τ).loc main_arg5)) :=
  (W4_of_ne m ρ c main_arg5 (by decide)).trans (w3_arg5 m ρ c)

/-! ## After the second transform -/

theorem w5_v44 : W5 m ρ c (Proc.devRef .tc main_v44) = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W5_arr m ρ c 2).trans ((Cert.KernelIdeal.Region2.final (V4 m ρ) c).trans (by
    show Cert.Gcn.matProd (n := 100000) (k := 128) (d := 64) (W4 m ρ c (Proc.devRef .tc main_v43)) (W4 m ρ c (Proc.devRef .tc main_arg4)) = _
    rw [w4_v43 m ρ c, w4_arg4 m ρ c]
    exact (Cert.ReferenceIdeal.Stages.h2_stage (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))).symm))
theorem w5_v1 : W5 m ρ c (Proc.devRef .tc main_v1) = Cert.ReferenceIdeal.Read.val_main_v1 (F := Ideal) (m ((c.tc : Thread nD τ).loc main_arg1)) :=
  (W5_of_ne m ρ c main_v1 (by decide)).trans (w4_v1 m ρ c)
theorem w5_v3 : W5 m ρ c (Proc.devRef .tc main_v3) = Cert.ReferenceIdeal.Read.val_main_v3 (F := Ideal) (m ((c.tc : Thread nD τ).loc main_arg1)) :=
  (W5_of_ne m ρ c main_v3 (by decide)).trans (w4_v3 m ρ c)
theorem w5_v26 : W5 m ρ c (Proc.devRef .tc main_v26) = Cert.ReferenceIdeal.Read.val_main_v34 (F := Ideal) (m ((c.tc : Thread nD τ).loc main_arg1)) :=
  (W5_of_ne m ρ c main_v26 (by decide)).trans (w4_v26 m ρ c)
theorem w5_v28 : W5 m ρ c (Proc.devRef .tc main_v28) = Cert.ReferenceIdeal.Read.val_main_v41 (F := Ideal) (m ((c.tc : Thread nD τ).loc main_arg1)) :=
  (W5_of_ne m ρ c main_v28 (by decide)).trans (w4_v28 m ρ c)
theorem w5_arg5 : W5 m ρ c (Proc.devRef .tc main_arg5) = (m ((c.tc : Thread nD τ).loc main_arg5)) :=
  (W5_of_ne m ρ c main_arg5 (by decide)).trans (w4_arg5 m ρ c)

/-! ## Before the second combine -/

theorem w6_v56 : W6 m ρ c (Proc.devRef .tc main_v56) = Cert.ReferenceIdeal.Read.val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps3 (W5 m ρ c) (Proc.devRef .tc main_v56) = _
  after_results_simp
  rw [w5_v3 m ρ c, w5_v1 m ρ c, w5_v44 m ρ c, w5_v26 m ρ c]
  rfl
theorem w6_v57 : W6 m ρ c (Proc.devRef .tc main_v57) = (shapeCast S1x64 (m ((c.tc : Thread nD τ).loc main_arg5)) shapeCasts_S64_S1x64) := by
  show StableHlo.after hostOps3 (W5 m ρ c) (Proc.devRef .tc main_v57) = _
  after_results_simp
  rw [w5_arg5 m ρ c]
  rfl
theorem w6_v44 : W6 m ρ c (Proc.devRef .tc main_v44) = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (show StableHlo.after hostOps3 (W5 m ρ c) (Proc.devRef .tc main_v44) = W5 m ρ c (Proc.devRef .tc main_v44) by after_results_simp).trans (w5_v44 m ρ c)
theorem w6_v28 : W6 m ρ c (Proc.devRef .tc main_v28) = Cert.ReferenceIdeal.Read.val_main_v41 (F := Ideal) (m ((c.tc : Thread nD τ).loc main_arg1)) :=
  (show StableHlo.after hostOps3 (W5 m ρ c) (Proc.devRef .tc main_v28) = W5 m ρ c (Proc.devRef .tc main_v28) by after_results_simp).trans (w5_v28 m ρ c)

/-- The reference's second layer recomputes the squared normalizers: the same term as the first layer's. -/
theorem nsq_again : Cert.ReferenceIdeal.Read.val_main_v86 (F := Ideal) (m ((c.tc : Thread nD τ).loc main_arg1)) = Cert.ReferenceIdeal.Read.val_main_v41 (F := Ideal) (m ((c.tc : Thread nD τ).loc main_arg1)) := rfl

/-! ## The result -/

/-- The kernel's result buffer ends at the reference's result, as a function of the kernel's own arguments. -/
theorem result_eq : W7 m ρ c (Proc.devRef .tc main_v58) = Cert.ReferenceIdeal.Read.val_main_v103 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W7_arr m ρ c 4).trans ((Cert.KernelIdeal.Region3.final (V6 m ρ) c).trans (by
    show Cert.Gcn.softmaxOut (n := 100000) (d := 64) (W6 m ρ c (Proc.devRef .tc main_v56)) (W6 m ρ c (Proc.devRef .tc main_v44)) (W6 m ρ c (Proc.devRef .tc main_v28)) (W6 m ρ c (Proc.devRef .tc main_v57)) = _
    rw [w6_v56 m ρ c, w6_v44 m ρ c, w6_v28 m ρ c, w6_v57 m ρ c, ← nsq_again m c]
    exact (Cert.ReferenceIdeal.Stages.softmax_stage (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) shapeCasts_S64_S1x64).symm))

end Cert.Chain

end
-- ==== Proof.lean ====
/-
  A two-layer graph convolution — degree-normalized neighbour aggregation of linearly transformed node features, with a
  self-loop term and a bias, a ReLU between the layers and a row softmax at the end — computed by a kernel program of
  four row-blocked launches (two matrix products, a combine with ReLU, a combine with softmax) among host gathers and
  scatter-adds, against the plain array reference.

  On the extended reals both programs compute, entry by entry, the same formulas in the same order: a blocked matrix
  product into a zero accumulator is the whole product row by row; a combine block depends only on its own rows; the
  rounding to bf16 before the products is the identity; the softmax is spelt the stable way on both sides, and the
  reference's extra maximum with minus infinity changes nothing because a maximum folded from minus infinity is at least
  minus infinity.  No step cancels or distributes, so the finiteness of the inputs is never used.

  The three frames are the generated launch proofs (the reference's is its generated run with the result dropped); the
  idealization rewrote nothing, so it is preserved trivially; the value claim pairs the kernel's run with its result named
  (the launch over the program's seven segments) with the reference's generated run, and the two results are one function
  of the arguments by following the buffer contents through the segments.
-/
import proofs.«138460_j58067957842339_2_alg».proof.Defs
import proofs.«138460_j58067957842339_2_alg».proof.Proof.Gen.Kernel
import proofs.«138460_j58067957842339_2_alg».proof.Proof.Gen.Kernel.Frame
import proofs.«138460_j58067957842339_2_alg».proof.Proof.Gen.KernelIdeal
import proofs.«138460_j58067957842339_2_alg».proof.Proof.Gen.KernelIdeal.Frame
import proofs.«138460_j58067957842339_2_alg».proof.Proof.Gen.ReferenceIdeal
import proofs.«138460_j58067957842339_2_alg».proof.Proof.Gen.ReferenceIdeal.Run
import proofs.«138460_j58067957842339_2_alg».proof.Proof.Gen.ReferenceIdeal.Read
import proofs.«138460_j58067957842339_2_alg».proof.Proof.Gen.Pre_finite_inputs
import proofs.«138460_j58067957842339_2_alg».proof.Proof.KRun
import proofs.«138460_j58067957842339_2_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run; the kernel's result is the reference's stages applied to the kernel's own arguments, the
    reference's result the same stages applied to its arguments, and the arguments agree. -/
theorem algebraic : Cert.algebraic_KernelIdeal_ReferenceIdeal := by
  intro m ρ m' ρ' _ hagree
  refine ⟨fun c => Cert.KernelIdeal.Gen.W7 m ρ c (Proc.devRef .tc Cert.KernelIdeal.main_v58),
    Cert.KernelIdeal.KRun.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v103_eq m' c, (hagree c).1, (hagree c).2.1, (hagree c).2.2.1, (hagree c).2.2.2.1,
    (hagree c).2.2.2.2.1, (hagree c).2.2.2.2.2]
  exact (Cert.Chain.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
